-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S64x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S64x64, .f32⟩
  | .hbm, ⟨73, _⟩ => ⟨S100000x64, .f32⟩
  | .hbm, ⟨74, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Sage.lean ====
/-
  A two-layer GraphSAGE network with mean aggregation, on the extended reals.

  One layer sends node features `X` (100000 nodes, 64 features each) and their neighbourhood means `A` to
      out[r, c] = Σ_k A[r, k] · Wl[c, k]  +  Σ_k X[r, k] · Wr[c, k]  +  b[c],
  the first layer followed by a maximum with zero. The aggregation `A = agg X` (gather the sources' rows, add them up at the
  destinations, scale by the inverse degree) is the same function in both programs, so it enters here as a parameter and is
  never opened. The two programs differ only in where the bias joins the sum, `(s + t) + b` against `(s + b) + t`: addition
  on the extended reals is commutative and associative, so no finiteness is needed.
-/
import Idealize.ShloMosaic.PureOps.Ideal
import Idealize.ShloMosaic.Lib.ValueIdx

noncomputable section

namespace Cert.Sage

open Idealize.ShloMosaic Idealize.ShloMosaic.ValueIdx

/-- Node features: one row of 64 per node. -/
abbrev Feat : Type := (⟨2, ![100000, 64]⟩ : Shape).Idx → EReal
/-- A weight matrix, stored [out, in]. -/
abbrev Wt : Type := (⟨2, ![64, 64]⟩ : Shape).Idx → EReal
/-- A bias, one entry per output column (the kernel holds it as a row, the reference as a vector). -/
abbrev Bias : Type := Fin 64 → EReal

/-- The value `0.0` as both programs write it (one bit pattern on both sides: it is never evaluated). -/
abbrev zero : EReal := Ideal.ofBits .f32 0x00000000#32

/-- One entry of a layer: row `r` of the aggregated and of the own features against row `c` of each weight matrix,
    then the bias. -/
def linAt (A X : Feat) (Wl : Wt) (b : Bias) (Wr : Wt) (r : Fin 100000) (c : Fin 64) : EReal :=
  (∑ k : Fin 64, A (ix2 r k) * Wl (ix2 c k)) + (∑ k : Fin 64, X (ix2 r k) * Wr (ix2 c k)) + b c

/-- A layer without activation. -/
def lin (A X : Feat) (Wl : Wt) (b : Bias) (Wr : Wt) : Feat := fun i => linAt A X Wl b Wr (i 0) (i 1)

/-- A layer followed by the maximum with zero. -/
def linRelu (A X : Feat) (Wl : Wt) (b : Bias) (Wr : Wt) : Feat := fun i => max (linAt A X Wl b Wr (i 0) (i 1)) zero

/-- The hidden features: the first layer of the input's own and aggregated features. -/
def hidden (agg : Feat → Feat) (x : Feat) (W1l : Wt) (b1 : Bias) (W1r : Wt) : Feat :=
  linRelu (agg x) x W1l b1 W1r

/-- The network: the second layer of the hidden features' own and aggregated values. -/
def net (agg : Feat → Feat) (x : Feat) (W1l : Wt) (b1 : Bias) (W1r : Wt) (W2l : Wt) (b2 : Bias) (W2r : Wt) : Feat :=
  lin (agg (hidden agg x W1l b1 W1r)) (hidden agg x W1l b1 W1r) W2l b2 W2r

/-- The bias added between the two products instead of after them: the same entry. -/
theorem linAt_bias_first (A X : Feat) (Wl : Wt) (b : Bias) (Wr : Wt) (r : Fin 100000) (c : Fin 64) :
    (∑ k : Fin 64, A (ix2 r k) * Wl (ix2 c k)) + b c + (∑ k : Fin 64, X (ix2 r k) * Wr (ix2 c k))
      = linAt A X Wl b Wr r c := by
  unfold linAt
  exact add_right_comm _ _ _

end Cert.Sage

end
-- ==== Proof.ReferenceNet.lean ====
/-
  The reference program is the two-layer network.

  Stage by stage the reference computes, for each layer, the aggregated features times the transposed left weights, plus
  the bias broadcast down the rows, plus the own features times the transposed right weights; the first layer ends with a
  maximum against zero, and the second layer's aggregation gathers the first layer's result. Read at an entry (r, c) each
  product is a sum over the feature axis, the transposes turn `W[k, c]` of the transposed matrix into `W[c, k]` of the
  stored one, and the bias arrives between the two products: `Sage.linAt_bias_first` moves it to the end.
-/
import proofs.«144459_j72112500899971_1_alg».proof.Proof.Gen.ReferenceIdeal.Read
import proofs.«144459_j72112500899971_1_alg».proof.Proof.Sage

noncomputable section

namespace Cert.ReferenceIdeal.Net

open Cert.ReferenceIdeal Cert.ReferenceIdeal.Read Idealize.ShloMosaic Idealize.ShloMosaic.ValueIdx

/-- The neighbourhood mean of node features, for the edge list `e`: the reference's first aggregation stage as a
    function of the features it gathers from. Never opened. -/
abbrev agg (e : (⟨S2x1600000, .i32⟩ : BufTy).Contents (Elt Ideal)) : Cert.Sage.Feat → Cert.Sage.Feat :=
  fun X => val_main_v24 (F := Ideal) X e

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 x5 : (⟨S64x64, .f32⟩ : BufTy).Contents (Elt Ideal)) (x6 : (⟨S64, .f32⟩ : BufTy).Contents (Elt Ideal))
  (x7 : (⟨S64x64, .f32⟩ : BufTy).Contents (Elt Ideal))

/-! ## The operand indices of the reference's products and broadcasts, at an entry (r, c) -/

theorem lhs_agg_1 (r : Fin 100000) (c k : Fin 64) : lidx_main_v26 (ix2 r c) k = ix2 r k :=
  funext fun a => Fin.ext (by match a with | ⟨0, _⟩ => rfl | ⟨1, _⟩ => rfl)
theorem rhs_agg_1 (r : Fin 100000) (c k : Fin 64) : idx_main_v25 (ridx_main_v26 (ix2 r c) k) = ix2 c k :=
  funext fun a => Fin.ext (by match a with | ⟨0, _⟩ => rfl | ⟨1, _⟩ => rfl)
theorem lhs_own_1 (r : Fin 100000) (c k : Fin 64) : lidx_main_v31 (ix2 r c) k = ix2 r k :=
  funext fun a => Fin.ext (by match a with | ⟨0, _⟩ => rfl | ⟨1, _⟩ => rfl)
theorem rhs_own_1 (r : Fin 100000) (c k : Fin 64) : idx_main_v30 (ridx_main_v31 (ix2 r c) k) = ix2 c k :=
  funext fun a => Fin.ext (by match a with | ⟨0, _⟩ => rfl | ⟨1, _⟩ => rfl)
theorem bias_1 (r : Fin 100000) (c : Fin 64) : idx_main_v27 (idx_main_v28 (ix2 r c)) = ix1 c :=
  funext fun a => Fin.ext (by match a with | ⟨0, _⟩ => rfl)

theorem lhs_agg_2 (r : Fin 100000) (c k : Fin 64) : lidx_main_v48 (ix2 r c) k = ix2 r k :=
  funext fun a => Fin.ext (by match a with | ⟨0, _⟩ => rfl | ⟨1, _⟩ => rfl)
theorem rhs_agg_2 (r : Fin 100000) (c k : Fin 64) : idx_main_v47 (ridx_main_v48 (ix2 r c) k) = ix2 c k :=
  funext fun a => Fin.ext (by match a with | ⟨0, _⟩ => rfl | ⟨1, _⟩ => rfl)
theorem lhs_own_2 (r : Fin 100000) (c k : Fin 64) : lidx_main_v53 (ix2 r c) k = ix2 r k :=
  funext fun a => Fin.ext (by match a with | ⟨0, _⟩ => rfl | ⟨1, _⟩ => rfl)
theorem rhs_own_2 (r : Fin 100000) (c k : Fin 64) : idx_main_v52 (ridx_main_v53 (ix2 r c) k) = ix2 c k :=
  funext fun a => Fin.ext (by match a with | ⟨0, _⟩ => rfl | ⟨1, _⟩ => rfl)
theorem bias_2 (r : Fin 100000) (c : Fin 64) : idx_main_v49 (idx_main_v50 (ix2 r c)) = ix1 c :=
  funext fun a => Fin.ext (by match a with | ⟨0, _⟩ => rfl)

/-! ## The first layer -/

/-- The first layer before its activation, at (r, c). -/
theorem pre1_apply (r : Fin 100000) (c : Fin 64) :
    val_main_v32 (F := Ideal) x0 x1 x2 x3 x4 (ix2 r c)
      = Cert.Sage.linAt (val_main_v24 (F := Ideal) x0 x1) x0 x2 (fun q => x3 (ix1 q)) x4 r c := by
  rw [val_main_v32_apply, val_main_v29_apply, val_main_v26_apply, val_main_v28_apply, val_main_v27_apply,
    val_main_v31_apply]
  simp only [val_main_v25_apply, val_main_v30_apply, lhs_agg_1, rhs_agg_1, lhs_own_1, rhs_own_1, bias_1, Ideal.addf_def]
  exact Cert.Sage.linAt_bias_first (val_main_v24 (F := Ideal) x0 x1) x0 x2 (fun q => x3 (ix1 q)) x4 r c

/-- The first layer's result is the network's hidden features. -/
theorem hidden_eq : val_main_v33 (F := Ideal) x0 x1 x2 x3 x4 = Cert.Sage.hidden (agg x1) x0 x2 (fun q => x3 (ix1 q)) x4 := by
  funext i
  obtain ⟨r, c, rfl⟩ : ∃ (r : Fin 100000) (c : Fin 64), i = ix2 r c := ⟨i 0, i 1, eq_ix2 i⟩
  rw [val_main_v33_apply, pre1_apply, val_main_call0_v0_apply, val_main_call0_cst_apply]
  rfl

/-! ## The second layer -/

/-- The second layer aggregates the first layer's result over the same edges. -/
theorem agg_hidden : val_main_v46 (F := Ideal) x0 x1 x2 x3 x4 = agg x1 (val_main_v33 (F := Ideal) x0 x1 x2 x3 x4) := rfl

/-- The second layer, at (r, c). -/
theorem out_apply (r : Fin 100000) (c : Fin 64) :
    val_main_v54 (F := Ideal) x0 x1 x2 x3 x4 x5 x6 x7 (ix2 r c)
      = Cert.Sage.linAt (val_main_v46 (F := Ideal) x0 x1 x2 x3 x4) (val_main_v33 (F := Ideal) x0 x1 x2 x3 x4) x5 (fun q => x6 (ix1 q)) x7 r c := by
  rw [val_main_v54_apply, val_main_v51_apply, val_main_v48_apply, val_main_v50_apply, val_main_v49_apply,
    val_main_v53_apply]
  simp only [val_main_v47_apply, val_main_v52_apply, lhs_agg_2, rhs_agg_2, lhs_own_2, rhs_own_2, bias_2, Ideal.addf_def]
  exact Cert.Sage.linAt_bias_first (val_main_v46 (F := Ideal) x0 x1 x2 x3 x4) (val_main_v33 (F := Ideal) x0 x1 x2 x3 x4) x5
    (fun q => x6 (ix1 q)) x7 r c

/-- The reference's result is the network of its arguments. -/
theorem result_eq :
    val_main_v54 (F := Ideal) x0 x1 x2 x3 x4 x5 x6 x7 = Cert.Sage.net (agg x1) x0 x2 (fun q => x3 (ix1 q)) x4 x5 (fun q => x6 (ix1 q)) x7 := by
  funext i
  obtain ⟨r, c, rfl⟩ : ∃ (r : Fin 100000) (c : Fin 64), i = ix2 r c := ⟨i 0, i 1, eq_ix2 i⟩
  rw [out_apply, agg_hidden, hidden_eq]
  rfl

end Cert.ReferenceIdeal.Net

end
-- ==== Proof.KernelBody.lean ====
/-
  One grid point of each layer's kernel, read at an entry of its output block.

  A point holds a block of 10000 rows of the aggregated features `a` and of the own features `x`, the two weight matrices
  whole and the bias as one row. It multiplies each block by the transpose of its weight matrix (both products contract the
  feature axis: entry (p, q) is Σ_k a[p, k] · wl[q, k]), adds the two products, then the bias row broadcast down the rows; the
  first layer ends with a maximum against zero. The roundings to a narrower format on the way into the products are the
  identity on the extended reals.
-/
import proofs.«144459_j72112500899971_1_alg».proof.Proof.Gen.KernelIdeal.Skeleton
import proofs.«144459_j72112500899971_1_alg».proof.Proof.Sage
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operand indices of a block's product -/

theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block times the transpose of a weight matrix, into a zero accumulator: entry (p, q) is the sum over the feature
    axis of the block's row p against the matrix's row q. -/
theorem matmul_transposed_apply (l : FVec Ideal S10000x64 .bf16) (w : FVec Ideal S64x64 .bf16) (p : Fin 10000) (q : Fin 64) :
    matmul dot_S10000x64_S64x64_S10000x64_1_0_0_1_n_n none l (transpose S64x64 [1, 0] w transposes_S64x64_p1_0_S64x64)
        (constant S10000x64 .f32 0x00000000#32) (ix2 p q)
      = ∑ k : Fin 64, l (ix2 p k) * w (ix2 q k) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_contr _ _).trans hk)
  rw [el]
  refine congrArg (l (ix2 p k) * ·) ?_
  exact transpose_apply [1, 0] w transposes_S64x64_p1_0_S64x64 _ (ix2 q k) (fun b => match b with
    | ⟨0, _⟩ => show k.val = _ from ((rhs_contr (ix2 p q) _).trans hk).symm
    | ⟨1, _⟩ => show q.val = _ from (rhs_col (ix2 p q) _).symm)

/-- The bias row broadcast down a block, at (p, q): the row's entry q. -/
theorem bias_row_apply (b : FVec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self]
  exact broadcastTo_apply b broadcasts_S1x64_S10000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-! ## The two bodies -/

/-- What the first layer's point stores, at entry (p, q) of its block. -/
theorem first_apply (a x : Vec Ideal S10000x64 .f32) (wl wr : Vec Ideal S64x64 .f32) (b : Vec Ideal S1x64 .f32)
    (p : Fin 10000) (q : Fin 64) :
    k0_pay1 (F := Ideal) a x wl wr b (ix2 p q)
      = max ((∑ k : Fin 64, a (ix2 p k) * wl (ix2 q k)) + (∑ k : Fin 64, x (ix2 p k) * wr (ix2 q k)) + b (ix2 0 q))
          Cert.Sage.zero := by
  unfold k0_pay1
  simp only [maximumf_apply, addf_apply, broadcast_apply]
  rw [matmul_transposed_apply, matmul_transposed_apply, bias_row_apply]
  simp only [truncf_apply, shapeCast_self]
  rfl

/-- What the second layer's point stores, at entry (p, q) of its block. -/
theorem second_apply (a x : Vec Ideal S10000x64 .f32) (wl wr : Vec Ideal S64x64 .f32) (b : Vec Ideal S1x64 .f32)
    (p : Fin 10000) (q : Fin 64) :
    k1_pay1 (F := Ideal) a x wl wr b (ix2 p q)
      = (∑ k : Fin 64, a (ix2 p k) * wl (ix2 q k)) + (∑ k : Fin 64, x (ix2 p k) * wr (ix2 q k)) + b (ix2 0 q) := by
  unfold k1_pay1
  simp only [addf_apply]
  rw [matmul_transposed_apply, matmul_transposed_apply, bias_row_apply]
  simp only [truncf_apply, shapeCast_self]

end Cert.KernelIdeal.Body

end
-- ==== Proof.Blocks.lean ====
/-
  From blocks to arrays: each layer's kernel, run over its ten grid points, leaves the layer of the whole arrays.

  Both regions have the same geometry. The aggregated and the own features are cut into ten blocks of 10000 rows, block t
  going to grid point t; the two weight matrices and the bias row are single blocks every point sees whole; the result is cut
  like the inputs. Point t therefore computes rows 10000·t … 10000·t + 9999 of the layer from exactly those rows of its
  inputs, and the ten row blocks tile the result: row r is written by point r / 10000, once. Everything is stated for the
  buffer contents `V` a region finds on entry, whatever they are.
-/
import proofs.«144459_j72112500899971_1_alg».proof.Proof.Gen.KernelIdeal.Frame
import proofs.«144459_j72112500899971_1_alg».proof.Proof.KernelBody
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The block indices of region 0's windows at a grid point: the two row-blocked inputs and the output move with the
    point, the weights and the bias stay at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated features' block at point t is row 10000·t + p of the array. -/
theorem agg_rows0 (c : Dev nD) (t : Fin cfg0.N) (p : Fin 10000) (k : Fin 64) (i : S100000x64.Idx)
    (h0 : (i 0).val = t.val * 10000 + p.val) (h1 : (i 1).val = k.val) :
    iblk0 V c 0 t (ix2 p k) = V c main_v24 i := by
  obtain ⟨e0, e1, -⟩ := idx0 t
  show V c main_v24 (((cfg0.win 0).blk t).view.emb (ix2 p k)) = V c main_v24 i
  refine congrArg (V c main_v24) (funext fun a => Fin.ext ?_)
  match a with
  | ⟨0, _⟩ => show win0_0.index t (0 : Fin 2) * 10000 + 1 * p.val = (i 0).val; rw [e0, h0]; omega
  | ⟨1, _⟩ => show win0_0.index t (1 : Fin 2) * 64 + 1 * k.val = (i 1).val; rw [e1, h1]; omega

/-- The same for the own features' block. -/
theorem own_rows0 (c : Dev nD) (t : Fin cfg0.N) (p : Fin 10000) (k : Fin 64) (i : S100000x64.Idx)
    (h0 : (i 0).val = t.val * 10000 + p.val) (h1 : (i 1).val = k.val) :
    iblk0 V c 1 t (ix2 p k) = V c main_arg0 i := by
  obtain ⟨-, -, e0, e1, -⟩ := idx0 t
  show V c main_arg0 (((cfg0.win 1).blk t).view.emb (ix2 p k)) = V c main_arg0 i
  refine congrArg (V c main_arg0) (funext fun a => Fin.ext ?_)
  match a with
  | ⟨0, _⟩ => show win0_1.index t (0 : Fin 2) * 10000 + 1 * p.val = (i 0).val; rw [e0, h0]; omega
  | ⟨1, _⟩ => show win0_1.index t (1 : Fin 2) * 64 + 1 * k.val = (i 1).val; rw [e1, h1]; omega

/-- The left weights' block is the whole matrix at every point. -/
theorem left_weights0 (c : Dev nD) (t : Fin cfg0.N) (q k : Fin 64) (i : S64x64.Idx)
    (h0 : (i 0).val = q.val) (h1 : (i 1).val = k.val) :
    iblk0 V c 2 t (ix2 q k) = V c main_arg2 i := by
  obtain ⟨-, -, -, -, e0, e1, -⟩ := idx0 t
  show V c main_arg2 (((cfg0.win 2).blk t).view.emb (ix2 q k)) = V c main_arg2 i
  refine congrArg (V c main_arg2) (funext fun a => Fin.ext ?_)
  match a with
  | ⟨0, _⟩ => show win0_2.index t (0 : Fin 2) * 64 + 1 * q.val = (i 0).val; rw [e0, h0]; omega
  | ⟨1, _⟩ => show win0_2.index t (1 : Fin 2) * 64 + 1 * k.val = (i 1).val; rw [e1, h1]; omega

/-- The bias row's block is the whole row at every point. -/
theorem bias_row0 (c : Dev nD) (t : Fin cfg0.N) (q : Fin 64) (i : S1x64.Idx)
    (h0 : (i 0).val = 0) (h1 : (i 1).val = q.val) :
    iblk0 V c 3 t (ix2 0 q) = V c main_v25 i := by
  obtain ⟨-, -, -, -, -, -, e0, e1, -⟩ := idx0 t
  show V c main_v25 (((cfg0.win 3).blk t).view.emb (ix2 0 q)) = V c main_v25 i
  refine congrArg (V c main_v25) (funext fun a => Fin.ext ?_)
  match a with
  | ⟨0, _⟩ => show win0_3.index t (0 : Fin 2) * 1 + 1 * 0 = (i 0).val; rw [e0, h0]
  | ⟨1, _⟩ => show win0_3.index t (1 : Fin 2) * 64 + 1 * q.val = (i 1).val; rw [e1, h1]; omega

/-- The right weights' block is the whole matrix at every point. -/
theorem right_weights0 (c : Dev nD) (t : Fin cfg0.N) (q k : Fin 64) (i : S64x64.Idx)
    (h0 : (i 0).val = q.val) (h1 : (i 1).val = k.val) :
    iblk0 V c 4 t (ix2 q k) = V c main_arg4 i := by
  obtain ⟨-, -, -, -, -, -, -, -, e0, e1, -⟩ := idx0 t
  show V c main_arg4 (((cfg0.win 4).blk t).view.emb (ix2 q k)) = V c main_arg4 i
  refine congrArg (V c main_arg4) (funext fun a => Fin.ext ?_)
  match a with
  | ⟨0, _⟩ => show win0_4.index t (0 : Fin 2) * 64 + 1 * q.val = (i 0).val; rw [e0, h0]; omega
  | ⟨1, _⟩ => show win0_4.index t (1 : Fin 2) * 64 + 1 * k.val = (i 1).val; rw [e1, h1]; omega

/-- The first layer (with its maximum against zero) over the whole arrays as region 0 finds them. -/
def layer0 (c : Dev nD) : Buf (Elt Ideal) ((c : Thread nD τ).loc main_v26) :=
  Cert.Sage.linRelu (V c main_v24) (V c main_arg0) (V c main_arg2) (fun q => V c main_v25 (ix2 0 q)) (V c main_arg4)

/-- What point t of region 0 writes back is its block of the layer over the whole arrays. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨-, -, -, -, -, -, -, -, -, -, e50, e51⟩ := idx0 t
  funext j
  have hj0 : (j 0).val < 10000 := (j 0).isLt
  have hj1 : (j 1).val < 64 := (j 1).isLt
  have hx : ((win0 5).xinj (grid0.coords t) j : S10000x64.Idx) = ix2 ⟨(j 0).val, hj0⟩ ⟨(j 1).val, hj1⟩ :=
    funext fun a => Fin.ext (by match a with | ⟨0, _⟩ => rfl | ⟨1, _⟩ => rfl)
  have hr : ((((cfg0.win 5).blk t).view.emb j) 0).val = t.val * 10000 + (j 0).val := by
    show win0_5.index t (0 : Fin 2) * 10000 + 1 * (j 0).val = _; rw [e50]; omega
  have hc : ((((cfg0.win 5).blk t).view.emb j) 1).val = (j 1).val := by
    show win0_5.index t (1 : Fin 2) * 64 + 1 * (j 1).val = _; rw [e51]; omega
  show k0_pay1 (iblk0 V c 0 t) (iblk0 V c 1 t) (iblk0 V c 2 t) (iblk0 V c 4 t) (iblk0 V c 3 t) ((win0 5).xinj (grid0.coords t) j)
      = layer0 V c (((cfg0.win 5).blk t).view.emb j)
  rw [hx, Body.first_apply]
  refine congrArg (fun v => max v Cert.Sage.zero) ?_
  refine congrArg₂ (· + ·) (congrArg₂ (· + ·) (Finset.sum_congr rfl fun k _ => ?_) (Finset.sum_congr rfl fun k _ => ?_)) ?_
  · exact congrArg₂ (· * ·) (agg_rows0 V c t _ k (ix2 ((((cfg0.win 5).blk t).view.emb j) 0) k) hr rfl)
      (left_weights0 V c t _ k (ix2 ((((cfg0.win 5).blk t).view.emb j) 1) k) hc rfl)
  · exact congrArg₂ (· * ·) (own_rows0 V c t _ k (ix2 ((((cfg0.win 5).blk t).view.emb j) 0) k) hr rfl)
      (right_weights0 V c t _ k (ix2 ((((cfg0.win 5).blk t).view.emb j) 1) k) hc rfl)
  · exact bias_row0 V c t _ (ix2 0 ((((cfg0.win 5).blk t).view.emb j) 1)) rfl hc

/-- An entry of the result array lies in point t's block iff its row lies in the block's 10000 rows. -/
theorem mem_blk0 (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v26).slice (win0_5.rect t)).set ↔ _
  rw [View.set_slice_whole, Rect.mem_set_unit]
  exact Iff.rfl

/-- The ten row blocks cover the result array: row r is written back by point r / 10000. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, -, -, -, -, -, -, e50, e51⟩ := idx0 ⟨(i 0).val / 10000, ht⟩
  refine ⟨⟨(i 0).val / 10000, ht⟩, flush0_5 _, ?_⟩
  rw [mem_blk0]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win0_5.index ⟨(i 0).val / 10000, ht⟩ (1 : Fin 2) * 64 ≤ (i 1).val
      ∧ (i 1).val < win0_5.index ⟨(i 0).val / 10000, ht⟩ (1 : Fin 2) * 64 + 64
    rw [e51]
    omega

/-- So region 0's result array ends holding the layer over the whole arrays. -/
theorem final0 (c : Dev nD) : (dat0 V c).arrAt 5 cfg0.N = layer0 V c :=
  (dat0 V c).arrAt_eq_of_cover 5 (layer0 V c) (fun t _ => flushed0 V c t) cover0

/-! ## Region 1 -/

/-- The block indices of region 1's windows at a grid point: the two row-blocked inputs and the output move with the
    point, the weights and the bias stay at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated features' block at point t is row 10000·t + p of the array. -/
theorem agg_rows1 (c : Dev nD) (t : Fin cfg1.N) (p : Fin 10000) (k : Fin 64) (i : S100000x64.Idx)
    (h0 : (i 0).val = t.val * 10000 + p.val) (h1 : (i 1).val = k.val) :
    iblk1 V c 0 t (ix2 p k) = V c main_v39 i := by
  obtain ⟨e0, e1, -⟩ := idx1 t
  show V c main_v39 (((cfg1.win 0).blk t).view.emb (ix2 p k)) = V c main_v39 i
  refine congrArg (V c main_v39) (funext fun a => Fin.ext ?_)
  match a with
  | ⟨0, _⟩ => show win1_0.index t (0 : Fin 2) * 10000 + 1 * p.val = (i 0).val; rw [e0, h0]; omega
  | ⟨1, _⟩ => show win1_0.index t (1 : Fin 2) * 64 + 1 * k.val = (i 1).val; rw [e1, h1]; omega

/-- The same for the own features' block. -/
theorem own_rows1 (c : Dev nD) (t : Fin cfg1.N) (p : Fin 10000) (k : Fin 64) (i : S100000x64.Idx)
    (h0 : (i 0).val = t.val * 10000 + p.val) (h1 : (i 1).val = k.val) :
    iblk1 V c 1 t (ix2 p k) = V c main_v26 i := by
  obtain ⟨-, -, e0, e1, -⟩ := idx1 t
  show V c main_v26 (((cfg1.win 1).blk t).view.emb (ix2 p k)) = V c main_v26 i
  refine congrArg (V c main_v26) (funext fun a => Fin.ext ?_)
  match a with
  | ⟨0, _⟩ => show win1_1.index t (0 : Fin 2) * 10000 + 1 * p.val = (i 0).val; rw [e0, h0]; omega
  | ⟨1, _⟩ => show win1_1.index t (1 : Fin 2) * 64 + 1 * k.val = (i 1).val; rw [e1, h1]; omega

/-- The left weights' block is the whole matrix at every point. -/
theorem left_weights1 (c : Dev nD) (t : Fin cfg1.N) (q k : Fin 64) (i : S64x64.Idx)
    (h0 : (i 0).val = q.val) (h1 : (i 1).val = k.val) :
    iblk1 V c 2 t (ix2 q k) = V c main_arg5 i := by
  obtain ⟨-, -, -, -, e0, e1, -⟩ := idx1 t
  show V c main_arg5 (((cfg1.win 2).blk t).view.emb (ix2 q k)) = V c main_arg5 i
  refine congrArg (V c main_arg5) (funext fun a => Fin.ext ?_)
  match a with
  | ⟨0, _⟩ => show win1_2.index t (0 : Fin 2) * 64 + 1 * q.val = (i 0).val; rw [e0, h0]; omega
  | ⟨1, _⟩ => show win1_2.index t (1 : Fin 2) * 64 + 1 * k.val = (i 1).val; rw [e1, h1]; omega

/-- The bias row's block is the whole row at every point. -/
theorem bias_row1 (c : Dev nD) (t : Fin cfg1.N) (q : Fin 64) (i : S1x64.Idx)
    (h0 : (i 0).val = 0) (h1 : (i 1).val = q.val) :
    iblk1 V c 3 t (ix2 0 q) = V c main_v40 i := by
  obtain ⟨-, -, -, -, -, -, e0, e1, -⟩ := idx1 t
  show V c main_v40 (((cfg1.win 3).blk t).view.emb (ix2 0 q)) = V c main_v40 i
  refine congrArg (V c main_v40) (funext fun a => Fin.ext ?_)
  match a with
  | ⟨0, _⟩ => show win1_3.index t (0 : Fin 2) * 1 + 1 * 0 = (i 0).val; rw [e0, h0]
  | ⟨1, _⟩ => show win1_3.index t (1 : Fin 2) * 64 + 1 * q.val = (i 1).val; rw [e1, h1]; omega

/-- The right weights' block is the whole matrix at every point. -/
theorem right_weights1 (c : Dev nD) (t : Fin cfg1.N) (q k : Fin 64) (i : S64x64.Idx)
    (h0 : (i 0).val = q.val) (h1 : (i 1).val = k.val) :
    iblk1 V c 4 t (ix2 q k) = V c main_arg7 i := by
  obtain ⟨-, -, -, -, -, -, -, -, e0, e1, -⟩ := idx1 t
  show V c main_arg7 (((cfg1.win 4).blk t).view.emb (ix2 q k)) = V c main_arg7 i
  refine congrArg (V c main_arg7) (funext fun a => Fin.ext ?_)
  match a with
  | ⟨0, _⟩ => show win1_4.index t (0 : Fin 2) * 64 + 1 * q.val = (i 0).val; rw [e0, h0]; omega
  | ⟨1, _⟩ => show win1_4.index t (1 : Fin 2) * 64 + 1 * k.val = (i 1).val; rw [e1, h1]; omega

/-- The second layer over the whole arrays as region 1 finds them. -/
def layer1 (c : Dev nD) : Buf (Elt Ideal) ((c : Thread nD τ).loc main_v41) :=
  Cert.Sage.lin (V c main_v39) (V c main_v26) (V c main_arg5) (fun q => V c main_v40 (ix2 0 q)) (V c main_arg7)

/-- What point t of region 1 writes back is its block of the layer over the whole arrays. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  obtain ⟨-, -, -, -, -, -, -, -, -, -, e50, e51⟩ := idx1 t
  funext j
  have hj0 : (j 0).val < 10000 := (j 0).isLt
  have hj1 : (j 1).val < 64 := (j 1).isLt
  have hx : ((win1 5).xinj (grid1.coords t) j : S10000x64.Idx) = ix2 ⟨(j 0).val, hj0⟩ ⟨(j 1).val, hj1⟩ :=
    funext fun a => Fin.ext (by match a with | ⟨0, _⟩ => rfl | ⟨1, _⟩ => rfl)
  have hr : ((((cfg1.win 5).blk t).view.emb j) 0).val = t.val * 10000 + (j 0).val := by
    show win1_5.index t (0 : Fin 2) * 10000 + 1 * (j 0).val = _; rw [e50]; omega
  have hc : ((((cfg1.win 5).blk t).view.emb j) 1).val = (j 1).val := by
    show win1_5.index t (1 : Fin 2) * 64 + 1 * (j 1).val = _; rw [e51]; omega
  show k1_pay1 (iblk1 V c 0 t) (iblk1 V c 1 t) (iblk1 V c 2 t) (iblk1 V c 4 t) (iblk1 V c 3 t) ((win1 5).xinj (grid1.coords t) j)
      = layer1 V c (((cfg1.win 5).blk t).view.emb j)
  rw [hx, Body.second_apply]
  refine congrArg₂ (· + ·) (congrArg₂ (· + ·) (Finset.sum_congr rfl fun k _ => ?_) (Finset.sum_congr rfl fun k _ => ?_)) ?_
  · exact congrArg₂ (· * ·) (agg_rows1 V c t _ k (ix2 ((((cfg1.win 5).blk t).view.emb j) 0) k) hr rfl)
      (left_weights1 V c t _ k (ix2 ((((cfg1.win 5).blk t).view.emb j) 1) k) hc rfl)
  · exact congrArg₂ (· * ·) (own_rows1 V c t _ k (ix2 ((((cfg1.win 5).blk t).view.emb j) 0) k) hr rfl)
      (right_weights1 V c t _ k (ix2 ((((cfg1.win 5).blk t).view.emb j) 1) k) hc rfl)
  · exact bias_row1 V c t _ (ix2 0 ((((cfg1.win 5).blk t).view.emb j) 1)) rfl hc

/-- An entry of the result array lies in point t's block iff its row lies in the block's 10000 rows. -/
theorem mem_blk1 (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v41).slice (win1_5.rect t)).set ↔ _
  rw [View.set_slice_whole, Rect.mem_set_unit]
  exact Iff.rfl

/-- The ten row blocks cover the result array: row r is written back by point r / 10000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, -, -, -, -, -, -, -, e50, e51⟩ := idx1 ⟨(i 0).val / 10000, ht⟩
  refine ⟨⟨(i 0).val / 10000, ht⟩, flush1_5 _, ?_⟩
  rw [mem_blk1]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, ht⟩ (1 : Fin 2) * 64 ≤ (i 1).val
      ∧ (i 1).val < win1_5.index ⟨(i 0).val / 10000, ht⟩ (1 : Fin 2) * 64 + 64
    rw [e51]
    omega

/-- So region 1's result array ends holding the layer over the whole arrays. -/
theorem final1 (c : Dev nD) : (dat1 V c).arrAt 5 cfg1.N = layer1 V c :=
  (dat1 V c).arrAt_eq_of_cover 5 (layer1 V c) (fun t _ => flushed1 V c t) cover1

end Cert.KernelIdeal.Blocks

end
-- ==== Proof.KernelRun.lean ====
/-
  The idealized kernel program's run, with its result named.

  @main is four segments in a row: the host operations that build the first layer's aggregated features, the first
  layer's kernel region, the host operations that aggregate its result, the second layer's kernel region. The buffer
  contents at the four boundaries are a fold from the launch memory: a host stretch applies its operations, a region
  replaces its arrays by what its ten write-backs leave. Every weakly fair execution terminates with EVERY buffer that
  outlives the regions at the last boundary's contents; the result buffer is the second region's output array, which is
  the second layer over the arrays that region found.
-/
import proofs.«144459_j72112500899971_1_alg».proof.Proof.Gen.KernelIdeal.Frame
import proofs.«144459_j72112500899971_1_alg».proof.Proof.Blocks

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when @main starts: every buffer that outlives the regions at its launch contents, its generator
    register, and no debt to any other core. -/
abbrev start (c : Dev nD) : sProp 𝕄 :=
  iprop(StableHlo.held (c : Thread nD τ) (Pipeline.ucRefs τ sig) (W0 m ρ c) ∗ R c)

/-- The launch's resources give every core its starting state. -/
theorem start_all :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (iprop(emp) : sProp 𝕄))) ∗ levAts L lv)
      ⊢ |={Set.univ}=> bigSep Finset.univ (start (F := F) m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Howes, -, Hreg, -⟩, -⟩
  imodintro
  isplitl [Hbufs]; · iexact Hbufs
  isplitl [Hreg]; · iexists _; iexact Hreg
  iexists ∅; iexact Howes

/-- The last thread state, held beside a final state, says what that state's memory holds at every buffer that
    outlives the regions. -/
theorem read_last (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W4 m ρ c b⌝ ∗ SI s') := by
  iintro ⟨⟨Hbufs, -⟩, HSI⟩
  unfold StableHlo.held
  imodintro
  iapply (pointsTo_read_all (Pipeline.ucRefs τ sig) (fun b => (((c : Thread nD τ)).1, b)) (W4 m ρ c) s')
  isplitl [Hbufs] <;> iassumption

set_option backward.isDefEq.respectTransparency.types false in
/-- Every weakly fair execution of @main terminates, nothing faulting, with every buffer that outlives the regions at
    the last boundary's contents `W4`. -/
theorem run_unscoped : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := start m ρ) (Tₙ := Tₙ m ρ)
    (hch := ⟨fun _ => .rfl, fun _ => .rfl, fun _ => .rfl, fun _ => .rfl, fun _ => .rfl⟩)
    (hinit := start_all m ρ)
    (QY := fun c s => ∀ b ∈ Pipeline.ucRefs τ sig, s.mem (((c : Thread nD τ)).1, b) = W4 m ρ c b)
    (hfin := read_last m ρ)
    (hQ := fun s h => h)

end Cert.KernelIdeal.Run

end
-- ==== Proof.KernelNet.lean ====
/-
  The idealized kernel program computes the two-layer network.

  Walking the boundary contents back to the launch memory: the first region finds the aggregated input features (the host
  operations before it are the reference's own first aggregation stage, operation for operation), the input features, the
  first layer's weights and its bias reshaped to a row, and leaves the hidden features; the host operations between the
  regions aggregate those over the same edges with the same inverse degrees; the second region finds that, the hidden
  features, the second layer's weights and bias row, and leaves the network's result. The aggregation is never opened: on
  both sides it is one term.
-/
import proofs.«144459_j72112500899971_1_alg».proof.Proof.KernelRun
import proofs.«144459_j72112500899971_1_alg».proof.Proof.ReferenceNet
import Idealize.ShloMosaic.Lib.StableHlo.Run

noncomputable section

namespace Cert.KernelIdeal.Net

open Cert.KernelIdeal Cert.KernelIdeal.Gen Idealize.ShloMosaic Idealize.ShloMosaic.TcCoe Idealize.ShloMosaic.ValueIdx
open Idealize.SL.Sem Idealize.ShloMosaic.StableHlo
open Cert.ReferenceIdeal.Net (agg)
open Cert.ReferenceIdeal.Read (val_main_v1 val_main_v3 val_main_v11)

variable (m : (ℓ : Loc nD τ sig) → Buf (Elt Ideal) ℓ) (ρ : Dev nD → PrngReg)

/-- A bias vector reshaped to a row, at column q. -/
theorem row_of_vector (b : S64.Idx → EReal) (q : Fin 64) :
    shapeCast S1x64 b shapeCasts_S64_S1x64 (ix2 0 q) = b (ix1 q) :=
  shapeCast_apply b shapeCasts_S64_S1x64 (ix2 0 q) (ix1 q) (by
    rewrite [Shape.rowMajor_val_one, Shape.rowMajor_val_two]; show q.val = 0 * 64 + q.val; omega)

/-! ## What the first region finds -/

set_option maxHeartbeats 4000000 in
/-- The aggregated input features: the host operations before the first region are the aggregation of the input. -/
theorem entry0_agg (c : Dev nD) : V1 m ρ c main_v24 = agg (m ((c : Thread nD τ).loc main_arg1)) (m ((c : Thread nD τ).loc main_arg0)) := by
  show StableHlo.after hostOps0 (W0 m ρ c) (Proc.devRef .tc main_v24) = _
  after_results_simp
  rfl

set_option maxHeartbeats 4000000 in
theorem entry0_own (c : Dev nD) : V1 m ρ c main_arg0 = (m ((c : Thread nD τ).loc main_arg0)) := by
  show StableHlo.after hostOps0 (W0 m ρ c) (Proc.devRef .tc main_arg0) = _
  after_results_simp

set_option maxHeartbeats 4000000 in
theorem entry0_left (c : Dev nD) : V1 m ρ c main_arg2 = (m ((c : Thread nD τ).loc main_arg2)) := by
  show StableHlo.after hostOps0 (W0 m ρ c) (Proc.devRef .tc main_arg2) = _
  after_results_simp

set_option maxHeartbeats 4000000 in
theorem entry0_right (c : Dev nD) : V1 m ρ c main_arg4 = (m ((c : Thread nD τ).loc main_arg4)) := by
  show StableHlo.after hostOps0 (W0 m ρ c) (Proc.devRef .tc main_arg4) = _
  after_results_simp

set_option maxHeartbeats 4000000 in
/-- The first bias as a row. -/
theorem entry0_bias (c : Dev nD) :
    (fun q : Fin 64 => V1 m ρ c main_v25 (ix2 0 q)) = fun q => (m ((c : Thread nD τ).loc main_arg3)) (ix1 q) := by
  have e : V1 m ρ c main_v25 = shapeCast S1x64 (m ((c : Thread nD τ).loc main_arg3)) shapeCasts_S64_S1x64 := by
    show StableHlo.after hostOps0 (W0 m ρ c) (Proc.devRef .tc main_v25) = _
    after_results_simp
    rfl
  funext q
  rw [e]
  exact row_of_vector _ q

/-- The first region leaves the hidden features. -/
theorem hidden_eq (c : Dev nD) :
    W2 m ρ c (Proc.devRef .tc main_v26) = Cert.Sage.hidden (agg (m ((c : Thread nD τ).loc main_arg1))) (m ((c : Thread nD τ).loc main_arg0)) (m ((c : Thread nD τ).loc main_arg2)) (fun q => (m ((c : Thread nD τ).loc main_arg3)) (ix1 q)) (m ((c : Thread nD τ).loc main_arg4)) := by
  refine (W2_arr m ρ c 5).trans ((Blocks.final0 (V1 m ρ) c).trans ?_)
  unfold Blocks.layer0 Cert.Sage.hidden
  rw [entry0_agg m ρ c, entry0_own m ρ c, entry0_left m ρ c, entry0_right m ρ c, entry0_bias m ρ c]

/-! ## What the second region finds -/

set_option maxHeartbeats 4000000 in
/-- The first region and the operations after it leave the edges' sources, -/
theorem src_kept (c : Dev nD) : W2 m ρ c (Proc.devRef .tc main_v1) = val_main_v1 (F := Ideal) (m ((c : Thread nD τ).loc main_arg1)) :=
  (W2_of_ne m ρ c main_v1 (by decide)).trans (by
    show StableHlo.after hostOps0 (W0 m ρ c) (Proc.devRef .tc main_v1) = _
    after_results_simp
    rfl)

set_option maxHeartbeats 4000000 in
/-- their destinations, -/
theorem dst_kept (c : Dev nD) : W2 m ρ c (Proc.devRef .tc main_v3) = val_main_v3 (F := Ideal) (m ((c : Thread nD τ).loc main_arg1)) :=
  (W2_of_ne m ρ c main_v3 (by decide)).trans (by
    show StableHlo.after hostOps0 (W0 m ρ c) (Proc.devRef .tc main_v3) = _
    after_results_simp
    rfl)

set_option maxHeartbeats 4000000 in
/-- and the inverse degrees as the operations before the first region computed them. -/
theorem deg_inv_kept (c : Dev nD) : W2 m ρ c (Proc.devRef .tc main_v11) = val_main_v11 (F := Ideal) (m ((c : Thread nD τ).loc main_arg1)) :=
  (W2_of_ne m ρ c main_v11 (by decide)).trans (by
    show StableHlo.after hostOps0 (W0 m ρ c) (Proc.devRef .tc main_v11) = _
    after_results_simp
    rfl)

set_option maxHeartbeats 4000000 in
/-- The second layer's weights and bias are as launched. -/
theorem left2_kept (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp)

set_option maxHeartbeats 4000000 in
theorem bias2_kept (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp)

set_option maxHeartbeats 4000000 in
theorem right2_kept (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp)

set_option maxHeartbeats 4000000 in
/-- The aggregated hidden features: the host operations between the regions aggregate the first region's result over the
    same edges. -/
theorem entry1_agg (c : Dev nD) :
    V3 m ρ c main_v39 = agg (m ((c : Thread nD τ).loc main_arg1)) (W2 m ρ c (Proc.devRef .tc main_v26)) := by
  show StableHlo.after hostOps1 (W2 m ρ c) (Proc.devRef .tc main_v39) = _
  after_results_simp
  rw [src_kept m ρ c, dst_kept m ρ c, deg_inv_kept m ρ c]
  rfl

theorem entry1_own (c : Dev nD) : V3 m ρ c main_v26 = W2 m ρ c (Proc.devRef .tc main_v26) := by
  show StableHlo.after hostOps1 (W2 m ρ c) (Proc.devRef .tc main_v26) = _
  after_results_simp

theorem entry1_left (c : Dev nD) : V3 m ρ c main_arg5 = (m ((c : Thread nD τ).loc main_arg5)) := by
  show StableHlo.after hostOps1 (W2 m ρ c) (Proc.devRef .tc main_arg5) = _
  after_results_simp
  exact left2_kept m ρ c

theorem entry1_right (c : Dev nD) : V3 m ρ c main_arg7 = (m ((c : Thread nD τ).loc main_arg7)) := by
  show StableHlo.after hostOps1 (W2 m ρ c) (Proc.devRef .tc main_arg7) = _
  after_results_simp
  exact right2_kept m ρ c

/-- The second bias as a row. -/
theorem entry1_bias (c : Dev nD) :
    (fun q : Fin 64 => V3 m ρ c main_v40 (ix2 0 q)) = fun q => (m ((c : Thread nD τ).loc main_arg6)) (ix1 q) := by
  have e : V3 m ρ c main_v40 = shapeCast S1x64 (m ((c : Thread nD τ).loc main_arg6)) shapeCasts_S64_S1x64 := by
    show StableHlo.after hostOps1 (W2 m ρ c) (Proc.devRef .tc main_v40) = _
    after_results_simp
    rw [bias2_kept m ρ c]
    rfl
  funext q
  rw [e]
  exact row_of_vector _ q

/-- The second region leaves the network's result. -/
theorem result_eq (c : Dev nD) :
    W4 m ρ c (Proc.devRef .tc main_v41) = Cert.Sage.net (agg (m ((c : Thread nD τ).loc main_arg1))) (m ((c : Thread nD τ).loc main_arg0)) (m ((c : Thread nD τ).loc main_arg2)) (fun q => (m ((c : Thread nD τ).loc main_arg3)) (ix1 q)) (m ((c : Thread nD τ).loc main_arg4)) (m ((c : Thread nD τ).loc main_arg5)) (fun q => (m ((c : Thread nD τ).loc main_arg6)) (ix1 q)) (m ((c : Thread nD τ).loc main_arg7)) := by
  refine (W4_arr m ρ c 5).trans ((Blocks.final1 (V3 m ρ) c).trans ?_)
  unfold Blocks.layer1 Cert.Sage.net
  rw [entry1_agg m ρ c, entry1_own m ρ c, entry1_left m ρ c, entry1_right m ρ c, entry1_bias m ρ c, hidden_eq m ρ c]

/-! ## The run -/

/-- Every weakly fair execution of the idealized kernel program terminates with the result buffer at the network of the
    launch arguments, and the arguments unchanged. -/
theorem run : θ_run defs (onTc (τ := τ) (main (F := Ideal))) ⟨m, fun _ => 0, ρ⟩ (fun r => ∀ c : Dev nD,
      r.2.mem ((c : Thread nD τ).loc main_v41) = Cert.Sage.net (agg (m ((c : Thread nD τ).loc main_arg1))) (m ((c : Thread nD τ).loc main_arg0)) (m ((c : Thread nD τ).loc main_arg2)) (fun q => (m ((c : Thread nD τ).loc main_arg3)) (ix1 q)) (m ((c : Thread nD τ).loc main_arg4)) (m ((c : Thread nD τ).loc main_arg5)) (fun q => (m ((c : Thread nD τ).loc main_arg6)) (ix1 q)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨(h c _ (mem_uc main_v41 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (Run.run_unscoped m ρ)

end Cert.KernelIdeal.Net

end
-- ==== Proof.lean ====
/-
  Two GraphSAGE layers with mean aggregation over 100000 nodes and 1600000 edges: a kernel per layer against jnp.

  Each layer takes node features X and their neighbourhood means A = agg X (gather the sources' rows, add them up at the
  destinations, scale by one over the clamped in-degree; plain host operations, the same in both programs) to
      A · Wlᵀ + X · Wrᵀ + b,
  the first layer followed by a maximum with zero. The kernel computes both products for a block of 10000 rows at a
  time, adds them and then the bias; the reference adds the bias between the two products. On the extended reals
  addition is commutative and associative, so the two arrangements agree entry by entry with no finiteness needed, and
  a block's product is the same sum over the 64 features as the whole matrix's.

  Proof/Sage.lean states the network once, with the aggregation a parameter that is never opened. Proof/ReferenceNet.lean
  reads the reference's result, stage by stage, as that network; Proof/KernelBody.lean reads one grid point of each kernel at
  an entry, Proof/Blocks.lean puts the ten row blocks of each region together, Proof/KernelRun.lean states the kernel
  program's run with every surviving buffer named, and Proof/KernelNet.lean walks those contents back to the launch
  arguments: the same network. The rounding of the kernel's matrix operands to a narrower format is the identity here, and
  the kernel's idealization rewrote nothing, so nothing is owed for it.
-/
import proofs.«144459_j72112500899971_1_alg».proof.Defs
import proofs.«144459_j72112500899971_1_alg».proof.Proof.Gen.Kernel
import proofs.«144459_j72112500899971_1_alg».proof.Proof.Gen.Kernel.Frame
import proofs.«144459_j72112500899971_1_alg».proof.Proof.Gen.KernelIdeal
import proofs.«144459_j72112500899971_1_alg».proof.Proof.Gen.KernelIdeal.Frame
import proofs.«144459_j72112500899971_1_alg».proof.Proof.Gen.ReferenceIdeal
import proofs.«144459_j72112500899971_1_alg».proof.Proof.Gen.ReferenceIdeal.Run
import proofs.«144459_j72112500899971_1_alg».proof.Proof.Gen.ReferenceIdeal.Read
import proofs.«144459_j72112500899971_1_alg».proof.Proof.Gen.Pre_finite_inputs
import proofs.«144459_j72112500899971_1_alg».proof.Proof.ReferenceNet
import proofs.«144459_j72112500899971_1_alg».proof.Proof.KernelNet
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is host operations only: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The kernel's reading on the extended reals is its own text: no operation was rewritten. -/
theorem preserves : Cert.preserves_Kernel_KernelIdeal := trivial

/-- Both programs end with the result buffer at the network of the launch arguments. -/
theorem algebraic : Cert.algebraic_KernelIdeal_ReferenceIdeal := by
  intro m ρ m' ρ' _ hagree
  refine ⟨fun c => Cert.Sage.net (Cert.ReferenceIdeal.Net.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (fun q => (m ((c.tc : Thread Cert.KernelIdeal.nD Cert.KernelIdeal.τ).loc Cert.KernelIdeal.main_arg3)) (ValueIdx.ix1 q)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (fun q => (m ((c.tc : Thread Cert.KernelIdeal.nD Cert.KernelIdeal.τ).loc Cert.KernelIdeal.main_arg6)) (ValueIdx.ix1 q)) (m ((c.tc : Thread Cert.KernelIdeal.nD Cert.KernelIdeal.τ).loc Cert.KernelIdeal.main_arg7)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v54_eq, Cert.ReferenceIdeal.Net.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
